-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x500000 : Shape := ⟨2, ![2, 500000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64x64 .f32) (main_arg7 : FVec F S64 .f32) (main_arg8 : FVec F S64x64 .f32) (main_arg9 : FVec F S128x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S2x500000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S128x64 .f32) (main_arg10 : FVec F S64 .f32) (main_arg11 : FVec F S64x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S2x500000 : Shape := ⟨2, ![2, 500000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S10000x64 : Shape := ⟨2, ![10000, 64]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S10000x1 : Shape := ⟨2, ![10000, 1]⟩
abbrev S1x1 : Shape := ⟨2, ![1, 1]⟩

abbrev nBuf : Space → Nat
  | .hbm => 85
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x500000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x500000, .i32⟩
  | .hbm, ⟨60, _⟩ => ⟨S500000, .i32⟩
  | .hbm, ⟨61, _⟩ => ⟨S1x500000, .i32⟩
  | .hbm, ⟨62, _⟩ => ⟨S500000, .i32⟩
  | .hbm, ⟨63, _⟩ => ⟨S_, .i32⟩
  | .hbm, ⟨64, _⟩ => ⟨S500000, .i32⟩
  | .hbm, ⟨65, _⟩ => ⟨S500000, .i1⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S500000, .i32⟩
  | .hbm, ⟨70, _⟩ => ⟨S500000x1, .i32⟩
  | .hbm, ⟨71, _⟩ => ⟨S500000x64, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x64, .f32⟩
  | .hbm, ⟨81, _⟩ => ⟨S64x64, .f32⟩
  | .hbm, ⟨82, _⟩ => ⟨S64x64, .f32⟩
  | .hbm, ⟨83, _⟩ => ⟨S500000x1, .f32⟩
  | .hbm, ⟨84, _⟩ => ⟨S500000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S64, .f32⟩
  | .local _ .vmem, ⟨25, _⟩ => ⟨S64x1, .f32⟩
  | .local _ .vmem, ⟨26, _⟩ => ⟨S1, .f32⟩
  | .local _ .vmem, ⟨27, _⟩ => ⟨S10000x1, .f32⟩
  | .local _ .vmem, ⟨28, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S128x64_S64x64_0_0 : S128x64.Slices ![0, 0] S64x64
  slices_S128x64_S64x64_64_0 : S128x64.Slices ![64, 0] S64x64
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  gather_S100000x64_S500000x1_S500000x64_1_0_n_n_0_1_164_wf : GatherDims.WF S100000x64 S500000x1 S500000x64 [1] [0] [] [0] [] 1 ![1, 64]
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S500000x64.size a
  hwx2_0 : ∀ i : grid2.Coords, EltTy.bits .f32 = 32 ∨ (Rect.block (s := S500000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S500000x64.size a
  hwx2_1 : ∀ i : grid2.Coords, EltTy.bits .f32 = 32 ∨ (Rect.block (s := S500000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x1.size a ≤ S500000x1.size a
  hwx2_7 : ∀ i : grid2.Coords, EltTy.bits .f32 = 32 ∨ (Rect.block (s := S500000x1) S10000x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S10000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x500000 : Shape := ⟨2, ![2, 500000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x500000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S1x500000, .i32⟩
  | .hbm, ⟨83, _⟩ => ⟨S500000, .i32⟩
  | .hbm, ⟨84, _⟩ => ⟨S1x500000, .i32⟩
  | .hbm, ⟨85, _⟩ => ⟨S500000, .i32⟩
  | .hbm, ⟨86, _⟩ => ⟨S_, .i32⟩
  | .hbm, ⟨87, _⟩ => ⟨S500000, .i32⟩
  | .hbm, ⟨88, _⟩ => ⟨S500000, .i1⟩
  | .hbm, ⟨89, _⟩ => ⟨S_, .i32⟩
  | .hbm, ⟨90, _⟩ => ⟨S500000, .i32⟩
  | .hbm, ⟨91, _⟩ => ⟨S500000, .i32⟩
  | .hbm, ⟨92, _⟩ => ⟨S500000, .i32⟩
  | .hbm, ⟨93, _⟩ => ⟨S500000x1, .i32⟩
  | .hbm, ⟨94, _⟩ => ⟨S500000x64, .f32⟩
  | .hbm, ⟨95, _⟩ => ⟨S_, .i32⟩
  | .hbm, ⟨96, _⟩ => ⟨S500000, .i32⟩
  | .hbm, ⟨97, _⟩ => ⟨S500000, .i1⟩
  | .hbm, ⟨98, _⟩ => ⟨S_, .i32⟩
  | .hbm, ⟨99, _⟩ => ⟨S500000, .i32⟩
  | .hbm, ⟨100, _⟩ => ⟨S500000, .i32⟩
  | .hbm, ⟨101, _⟩ => ⟨S500000, .i32⟩
  | .hbm, ⟨102, _⟩ => ⟨S500000x1, .i32⟩
  | .hbm, ⟨103, _⟩ => ⟨S500000x64, .f32⟩
  | .hbm, ⟨104, _⟩ => ⟨S500000x128, .f32⟩
  | .hbm, ⟨105, _⟩ => ⟨S500000x64, .f32⟩
  | .hbm, ⟨106, _⟩ => ⟨S1x64, .f32⟩
  | .hbm, ⟨107, _⟩ => ⟨S500000x64, .f32⟩
  | .hbm, ⟨108, _⟩ => ⟨S500000x64, .f32⟩
  | .hbm, ⟨109, _⟩ => ⟨S_, .f32⟩
  | .hbm, ⟨110, _⟩ => ⟨S500000x64, .f32⟩
  | .hbm, ⟨111, _⟩ => ⟨S500000x64, .f32⟩
  | .hbm, ⟨112, _⟩ => ⟨S500000x1, .f32⟩
  | .hbm, ⟨113, _⟩ => ⟨S1x1, .f32⟩
  | .hbm, ⟨114, _⟩ => ⟨S500000x1, .f32⟩
  | .hbm, ⟨115, _⟩ => ⟨S500000x1, .f32⟩
  | .hbm, ⟨116, _⟩ => ⟨S500000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call1_cst : Ref sig .tc := ⟨.hbm, 109, rfl⟩
abbrev main_call1_v0 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.Spec.lean ====
/-
  The function both programs compute, written once over the reference's shapes at the extended reals.

  A node v collects the rows of its in-neighbours: `meanAgg Z e` is, row by row, the sum over the edges (s, v) of row s of Z,
  divided by max(1, the number of such edges). One layer is `A · Wl + b + X · Wr` of the aggregate A and the node's own
  row X (`layerLin`), the first layer followed by max(·, 0) (`layerRelu`). The decoder takes the two end points' rows of
  an edge side by side (a row of length 128), applies `· W9 + b10`, max(·, 0), and `· w11 + b12` (`decoder`). `result` is
  the two layers followed by the decoder at every labelled edge.
-/
import proofs.«124228_j36301063586078_2_alg».proof.ReferenceIdeal
import proofs.«124228_j36301063586078_2_alg».proof.Proof.Gen.ReferenceIdeal
import Idealize.ShloMosaic.PureOps.Ideal

noncomputable section

namespace Cert.Bridge

open Idealize.ShloMosaic Cert.ReferenceIdeal Cert.ReferenceIdeal.Gen

/-- The edges' end nodes (row 1 of the edge list) as a column of scatter positions. -/
def dstIdx (e : (⟨S2x1600000, .i32⟩ : BufTy).Contents (Elt Ideal)) : (⟨S1600000x1, .i32⟩ : BufTy).Contents (Elt Ideal) :=
  broadcastInDim S1600000x1 ![0] bcast_S1600000_S1600000x1_0
    (shapeCast _ (extractStridedSlice S1x1600000 ![1, 0] e slices_S2x1600000_S1x1600000_1_0) shapeCasts_S1x1600000_S1600000)

/-- The edges' start nodes (row 0 of the edge list), a negative one counted from the end, as a column of gather positions. -/
def srcIdx (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (shapeCast _ (extractStridedSlice S1x1600000 ![0, 0] e slices_S2x1600000_S1x1600000_0_0) shapeCasts_S1x1600000_S1600000)
        (broadcastInDim S1600000 ![] bcast_S_S1600000 (constantI S_ 32 0#32)))
      (addi (shapeCast _ (extractStridedSlice S1x1600000 ![0, 0] e slices_S2x1600000_S1x1600000_0_0) shapeCasts_S1x1600000_S1600000)
        (broadcastInDim S1600000 ![] bcast_S_S1600000 (constantI S_ 32 100000#32)))
      (shapeCast _ (extractStridedSlice S1x1600000 ![0, 0] e slices_S2x1600000_S1x1600000_0_0) shapeCasts_S1x1600000_S1600000))

/-- max(1, in-degree) of every node, repeated along the 64 features. -/
def degree (e : (⟨S2x1600000, .i32⟩ : BufTy).Contents (Elt Ideal)) : FVec Ideal S100000x64 .f32 :=
  broadcastInDim S100000x64 ![0, 1] bcast_S100000x1_S100000x64_0_1 (broadcastInDim S100000x1 ![0] bcast_S100000_S100000x1_0
    (maximumf (Host.scatterAdd scatter_S100000_S1600000x1_S1600000_n_0_0_1
        (broadcastInDim S100000 ![] bcast_S_S100000 (constant (F := Ideal) S_ .f32 0x00000000#32)) (dstIdx e)
        (broadcastInDim S1600000 ![] bcast_S_S1600000 (constant (F := Ideal) S_ .f32 0x3F800000#32)))
      (broadcastInDim S100000 ![] bcast_S_S100000 (constant (F := Ideal) S_ .f32 0x3F800000#32))))

/-- The mean of the in-neighbours' rows of `Z`. -/
def meanAgg (Z : FVec Ideal S100000x64 .f32) (e : (⟨S2x1600000, .i32⟩ : BufTy).Contents (Elt Ideal)) : FVec Ideal S100000x64 .f32 :=
  Host.divf (Host.scatterAdd scatter_S100000x64_S1600000x1_S1600000x64_1_0_0_1
      (broadcastInDim S100000x64 ![] bcast_S_S100000x64 (constant (F := Ideal) S_ .f32 0x00000000#32)) (dstIdx e)
      (Host.gather gather_S100000x64_S1600000x1_S1600000x64_1_0_n_n_0_1_164 Z (srcIdx e)))
    (degree e)

/-- `A · Wl + b + X · Wr`. -/
def layerLin (A X : FVec Ideal S100000x64 .f32) (Wl : FVec Ideal S64x64 .f32) (b : FVec Ideal S64 .f32) (Wr : FVec Ideal S64x64 .f32) :
    FVec Ideal S100000x64 .f32 :=
  addf (addf (Host.dotGeneral dot_S100000x64_S64x64_S100000x64_1_0_0_1_n_n none A Wl)
      (broadcastInDim S100000x64 ![0, 1] bcast_S1x64_S100000x64_0_1 (broadcastInDim S1x64 ![1] bcast_S64_S1x64_1 b)))
    (Host.dotGeneral dot_S100000x64_S64x64_S100000x64_1_0_0_1_n_n none X Wr)

/-- max(`A · Wl + b + X · Wr`, 0). -/
def layerRelu (A X : FVec Ideal S100000x64 .f32) (Wl : FVec Ideal S64x64 .f32) (b : FVec Ideal S64 .f32) (Wr : FVec Ideal S64x64 .f32) :
    FVec Ideal S100000x64 .f32 :=
  maximumf (layerLin A X Wl b Wr) (broadcastInDim S100000x64 ![] bcast_S_S100000x64 (constant (F := Ideal) S_ .f32 0x00000000#32))

/-- The decoder: max([hr | hc] · W9 + b10, 0) · w11 + b12. -/
def decoder (hr hc : FVec Ideal S500000x64 .f32) (W9 : FVec Ideal S128x64 .f32) (b10 : FVec Ideal S64 .f32)
    (w11 : FVec Ideal S64x1 .f32) (b12 : FVec Ideal S1 .f32) : FVec Ideal S500000x1 .f32 :=
  addf (Host.dotGeneral dot_S500000x64_S64x1_S500000x1_1_0_0_1_n_n none
      (maximumf (addf (Host.dotGeneral dot_S500000x128_S128x64_S500000x64_1_0_0_1_n_n none
            (concatenate S500000x128 1 [⟨S500000x64, hr⟩, ⟨S500000x64, hc⟩] concatenates_S500000x64_S500000x64_S500000x128_d1) W9)
          (broadcastInDim S500000x64 ![0, 1] bcast_S1x64_S500000x64_0_1 (broadcastInDim S1x64 ![1] bcast_S64_S1x64_1 b10)))
        (broadcastInDim S500000x64 ![] bcast_S_S500000x64 (constant (F := Ideal) S_ .f32 0x00000000#32))) w11)
    (broadcastInDim S500000x1 ![0, 1] bcast_S1x1_S500000x1_0_1 (broadcastInDim S1x1 ![1] bcast_S1_S1x1_1 b12))

/-- Row `r` (0 or 1) of the labelled edges, a negative node counted from the end, as a column of gather positions. -/
def rowIdx (l : (⟨S2x500000, .i32⟩ : BufTy).Contents (Elt Ideal)) : (⟨S500000x1, .i32⟩ : BufTy).Contents (Elt Ideal) :=
  broadcastInDim S500000x1 ![0] bcast_S500000_S500000x1_0
    (select (cmpi .slt (shapeCast _ (extractStridedSlice S1x500000 ![0, 0] l slices_S2x500000_S1x500000_0_0) shapeCasts_S1x500000_S500000)
        (broadcastInDim S500000 ![] bcast_S_S500000 (constantI S_ 32 0#32)))
      (addi (shapeCast _ (extractStridedSlice S1x500000 ![0, 0] l slices_S2x500000_S1x500000_0_0) shapeCasts_S1x500000_S500000)
        (broadcastInDim S500000 ![] bcast_S_S500000 (constantI S_ 32 100000#32)))
      (shapeCast _ (extractStridedSlice S1x500000 ![0, 0] l slices_S2x500000_S1x500000_0_0) shapeCasts_S1x500000_S500000))

def colIdx (l : (⟨S2x500000, .i32⟩ : BufTy).Contents (Elt Ideal)) : (⟨S500000x1, .i32⟩ : BufTy).Contents (Elt Ideal) :=
  broadcastInDim S500000x1 ![0] bcast_S500000_S500000x1_0
    (select (cmpi .slt (shapeCast _ (extractStridedSlice S1x500000 ![1, 0] l slices_S2x500000_S1x500000_1_0) shapeCasts_S1x500000_S500000)
        (broadcastInDim S500000 ![] bcast_S_S500000 (constantI S_ 32 0#32)))
      (addi (shapeCast _ (extractStridedSlice S1x500000 ![1, 0] l slices_S2x500000_S1x500000_1_0) shapeCasts_S1x500000_S500000)
        (broadcastInDim S500000 ![] bcast_S_S500000 (constantI S_ 32 100000#32)))
      (shapeCast _ (extractStridedSlice S1x500000 ![1, 0] l slices_S2x500000_S1x500000_1_0) shapeCasts_S1x500000_S500000))

/-- The first layer's node features. -/
def z1 (x : FVec Ideal S100000x64 .f32) (e : (⟨S2x1600000, .i32⟩ : BufTy).Contents (Elt Ideal))
    (W1l : FVec Ideal S64x64 .f32) (b1l : FVec Ideal S64 .f32) (W1r : FVec Ideal S64x64 .f32) : FVec Ideal S100000x64 .f32 :=
  layerRelu (meanAgg x e) x W1l b1l W1r

/-- The second layer's node features. -/
def z2 (x : FVec Ideal S100000x64 .f32) (e : (⟨S2x1600000, .i32⟩ : BufTy).Contents (Elt Ideal))
    (W1l : FVec Ideal S64x64 .f32) (b1l : FVec Ideal S64 .f32) (W1r : FVec Ideal S64x64 .f32)
    (W2l : FVec Ideal S64x64 .f32) (b2l : FVec Ideal S64 .f32) (W2r : FVec Ideal S64x64 .f32) : FVec Ideal S100000x64 .f32 :=
  layerLin (meanAgg (z1 x e W1l b1l W1r) e) (z1 x e W1l b1l W1r) W2l b2l W2r

/-- The score of every labelled edge. -/
def result (x : FVec Ideal S100000x64 .f32) (e : (⟨S2x1600000, .i32⟩ : BufTy).Contents (Elt Ideal))
    (l : (⟨S2x500000, .i32⟩ : BufTy).Contents (Elt Ideal))
    (W1l : FVec Ideal S64x64 .f32) (b1l : FVec Ideal S64 .f32) (W1r : FVec Ideal S64x64 .f32)
    (W2l : FVec Ideal S64x64 .f32) (b2l : FVec Ideal S64 .f32) (W2r : FVec Ideal S64x64 .f32)
    (Wd1 : FVec Ideal S128x64 .f32) (bd1 : FVec Ideal S64 .f32) (Wd2 : FVec Ideal S64x1 .f32) (bd2 : FVec Ideal S1 .f32) :
    FVec Ideal S500000 .f32 :=
  shapeCast _ (decoder
      (Host.gather gather_S100000x64_S500000x1_S500000x64_1_0_n_n_0_1_164 (z2 x e W1l b1l W1r W2l b2l W2r) (rowIdx l))
      (Host.gather gather_S100000x64_S500000x1_S500000x64_1_0_n_n_0_1_164 (z2 x e W1l b1l W1r W2l b2l W2r) (colIdx l))
      Wd1 bd1 Wd2 bd2) shapeCasts_S500000x1_S500000

end Cert.Bridge

end
-- ==== Proof.RegionClaims.lean ====
/-
  What each of the three kernels leaves in its output array, stated for any contents `V` of the buffers at the kernel's
  entry: the first two kernels compute a layer (`A · Wl + b + X · Wr`, the first followed by max(·, 0)) of the arrays
  their windows read; the third computes the decoder of the two gathered row arrays, its two weight operands being the
  upper and the lower 64 rows of one 128 × 64 matrix.
-/
import proofs.«124228_j36301063586078_2_alg».proof.Proof.Gen.KernelIdeal.Frame
import proofs.«124228_j36301063586078_2_alg».proof.Proof.Spec

noncomputable section

namespace Cert.KernelIdeal.Regions

open Idealize.ShloMosaic Idealize.ShloMosaic.TcCoe Idealize.SL.Sem Cert.KernelIdeal Cert.KernelIdeal.Gen

/-- The first kernel's output array is max(A · Wl + b + X · Wr, 0) of its operand arrays. -/
def Layer1 : Prop :=
  ∀ (V : (c : Dev nD) → (b : Ref sig .tc) → Buf (Elt Ideal) ((c : Thread nD τ).loc b)) (c : Dev nD),
    (dat0 (F := Ideal) V c).arrAt 5 cfg0.N
      = Cert.Bridge.layerRelu (V c main_v22) (V c main_arg0) (V c main_arg3) (V c main_arg4) (V c main_arg5)

/-- The second kernel's output array is A · Wl + b + X · Wr of its operand arrays. -/
def Layer2 : Prop :=
  ∀ (V : (c : Dev nD) → (b : Ref sig .tc) → Buf (Elt Ideal) ((c : Thread nD τ).loc b)) (c : Dev nD),
    (dat1 (F := Ideal) V c).arrAt 5 cfg1.N
      = Cert.Bridge.layerLin (V c main_v35) (V c main_v23) (V c main_arg6) (V c main_arg7) (V c main_arg8)

/-- The third kernel's output array is the decoder of its operand arrays, when its two 64 × 64 weight operands are the
    upper and lower halves of `W9`. -/
def Decoder : Prop :=
  ∀ (V : (c : Dev nD) → (b : Ref sig .tc) → Buf (Elt Ideal) ((c : Thread nD τ).loc b)) (c : Dev nD)
    (W9 : FVec Ideal S128x64 .f32),
    V c main_v55 = extractStridedSlice S64x64 ![0, 0] W9 slices_S128x64_S64x64_0_0 →
    V c main_v56 = extractStridedSlice S64x64 ![64, 0] W9 slices_S128x64_S64x64_64_0 →
    (dat2 (F := Ideal) V c).arrAt 7 cfg2.N
      = Cert.Bridge.decoder (V c main_v47) (V c main_v54) W9 (V c main_arg10) (V c main_arg11) (V c main_arg12)

end Cert.KernelIdeal.Regions

end
-- ==== Proof.Combo.lean ====
/-
  The two index-level formulas of the network, over arrays with any number M of rows and 64 features, on the extended
  reals: one layer's entry (r, j) — the aggregate's row times the left weights, plus the bias, plus the node's own row
  times the right weights —, and the decoder's score of row r: the two end points' rows against the upper and the lower
  64 rows of the 128 × 64 matrix, plus the bias, cut at 0 from below, times the last weight column, plus the last bias.
-/
import Idealize.ShloMosaic.PureOps.Ideal
import Idealize.ShloMosaic.Lib.ValueIdx

noncomputable section

open scoped BigOperators

namespace Cert.Bridge

open Idealize.ShloMosaic Idealize.ShloMosaic.ValueIdx

/-- `(A · Wl + b + X · Wr) (r, j)`. -/
def comboAt {M : Nat} (A X : (⟨2, ![M, 64]⟩ : Shape).Idx → EReal) (Wl : (⟨2, ![64, 64]⟩ : Shape).Idx → EReal)
    (b : (⟨1, ![64]⟩ : Shape).Idx → EReal) (Wr : (⟨2, ![64, 64]⟩ : Shape).Idx → EReal) (r : Fin M) (j : Fin 64) : EReal :=
  (∑ k : Fin 64, A (ix2 r k) * Wl (ix2 k j)) + b (ix1 j) + ∑ k : Fin 64, X (ix2 r k) * Wr (ix2 k j)

/-- The hidden unit j of row r of the decoder, before the cut at 0: the row of `hr` against rows 0 … 63 of `W`, the row of
    `hc` against rows 64 … 127, plus the bias. -/
def hiddenAt {M : Nat} (hr hc : (⟨2, ![M, 64]⟩ : Shape).Idx → EReal) (W : (⟨2, ![128, 64]⟩ : Shape).Idx → EReal)
    (b : (⟨1, ![64]⟩ : Shape).Idx → EReal) (r : Fin M) (j : Fin 64) : EReal :=
  ((∑ k : Fin 64, hr (ix2 r k) * W (ix2 (Fin.castAdd 64 k) j)) + ∑ k : Fin 64, hc (ix2 r k) * W (ix2 (Fin.natAdd 64 k) j))
    + b (ix1 j)

/-- The decoder's score of row r. -/
def scoreAt {M : Nat} (hr hc : (⟨2, ![M, 64]⟩ : Shape).Idx → EReal) (W : (⟨2, ![128, 64]⟩ : Shape).Idx → EReal)
    (b : (⟨1, ![64]⟩ : Shape).Idx → EReal) (w : (⟨2, ![64, 1]⟩ : Shape).Idx → EReal) (b' : (⟨1, ![1]⟩ : Shape).Idx → EReal)
    (r : Fin M) : EReal :=
  (∑ j : Fin 64, max (hiddenAt hr hc W b r j) 0 * w (ix2 j (0 : Fin 1))) + b' (ix1 (0 : Fin 1))

end Cert.Bridge

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«124228_j36301063586078_2_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.SpecRead.lean ====
/-
  The reference's layer and decoder read at an index: entry (r, j) of `layerLin` is `comboAt` (two matrix products as
  sums over the 64 features and the bias row repeated over the rows), `layerRelu` its maximum with 0, and entry (r, 0) of
  `decoder` is `scoreAt`: the product of the joined row [hr | hc] with the 128 × 64 matrix splits, by the additivity of a
  finite sum over 64 + 64 terms, into the row of `hr` against the upper 64 rows plus the row of `hc` against the lower 64.
-/
import proofs.«124228_j36301063586078_2_alg».proof.Proof.Spec
import proofs.«124228_j36301063586078_2_alg».proof.Proof.Combo
import proofs.«124228_j36301063586078_2_alg».proof.Proof.LibPlainDot
import proofs.«124228_j36301063586078_2_alg».proof.Proof.LibHostReads
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Idealize.ShloMosaic.HostReads Cert.ReferenceIdeal Cert.ReferenceIdeal.Gen

/-- The splat of the zero constant reads 0 everywhere. -/
theorem zeroSplat_apply {t : Shape} (h : S_.BroadcastsInDim t ![]) (i : t.Idx) :
    broadcastInDim t ![] h (constant (F := Ideal) S_ .f32 0x00000000#32) i = (0 : EReal) := by
  rw [broadcastInDim_apply ![] h _ i ix0 (fun a => a.elim0), constant_apply, Ideal.ofBits_zero_f32]

/-- A node-feature matrix times a 64 × 64 weight matrix, at (r, j). -/
theorem dotNode_apply (A : FVec Ideal S100000x64 .f32) (W : FVec Ideal S64x64 .f32) (r : Fin 100000) (j : Fin 64) :
    Host.dotGeneral dot_S100000x64_S64x64_S100000x64_1_0_0_1_n_n none A W (ix2 r j) = ∑ k : Fin 64, A (ix2 r k) * W (ix2 k j) :=
  PlainDot.plainDot_apply none A W r j

/-- The joined rows times the 128 × 64 matrix, at (r, j). -/
theorem dotJoined_apply (H : FVec Ideal S500000x128 .f32) (W : FVec Ideal S128x64 .f32) (r : Fin 500000) (j : Fin 64) :
    Host.dotGeneral dot_S500000x128_S128x64_S500000x64_1_0_0_1_n_n none H W (ix2 r j) = ∑ k : Fin 128, H (ix2 r k) * W (ix2 k j) :=
  PlainDot.plainDot_apply none H W r j

/-- The hidden rows times the last weight column, at (r, z). -/
theorem dotLast_apply (H : FVec Ideal S500000x64 .f32) (w : FVec Ideal S64x1 .f32) (r : Fin 500000) (z : Fin 1) :
    Host.dotGeneral dot_S500000x64_S64x1_S500000x1_1_0_0_1_n_n none H w (ix2 r z) = ∑ k : Fin 64, H (ix2 r k) * w (ix2 k z) :=
  PlainDot.plainDot_apply none H w r z

theorem layerLin_apply (A X : FVec Ideal S100000x64 .f32) (Wl : FVec Ideal S64x64 .f32) (b : FVec Ideal S64 .f32)
    (Wr : FVec Ideal S64x64 .f32) (r : Fin 100000) (j : Fin 64) :
    layerLin A X Wl b Wr (ix2 r j) = comboAt A X Wl b Wr r j := by
  unfold layerLin comboAt
  rw [addf_apply, addf_apply, dotNode_apply, dotNode_apply, bcast_row_apply, bcast_toRow_apply]

theorem layerRelu_apply (A X : FVec Ideal S100000x64 .f32) (Wl : FVec Ideal S64x64 .f32) (b : FVec Ideal S64 .f32)
    (Wr : FVec Ideal S64x64 .f32) (r : Fin 100000) (j : Fin 64) :
    layerRelu A X Wl b Wr (ix2 r j) = max (comboAt A X Wl b Wr r j) 0 := by
  unfold layerRelu
  rw [maximumf_apply, layerLin_apply, zeroSplat_apply]

/-- The joined row [hr | hc] at a column of the left half is `hr`'s entry. -/
theorem joined_left (hr hc : FVec Ideal S500000x64 .f32) (r : Fin 500000) (k : Fin 64) :
    concatenate S500000x128 1 [⟨S500000x64, hr⟩, ⟨S500000x64, hc⟩] concatenates_S500000x64_S500000x64_S500000x128_d1
      (ix2 r (Fin.castAdd 64 k)) = hr (ix2 r k) :=
  concatenate_pair_apply_left 1 hr hc concatenates_S500000x64_S500000x64_S500000x128_d1 (ix2 r (Fin.castAdd 64 k)) rfl (ix2 r k)
    (fun b => by match b with | ⟨0, _⟩ => rfl | ⟨1, _⟩ => rfl)

/-- The joined row [hr | hc] at a column of the right half is `hc`'s entry. -/
theorem joined_right (hr hc : FVec Ideal S500000x64 .f32) (r : Fin 500000) (k : Fin 64) :
    concatenate S500000x128 1 [⟨S500000x64, hr⟩, ⟨S500000x64, hc⟩] concatenates_S500000x64_S500000x64_S500000x128_d1
      (ix2 r (Fin.natAdd 64 k)) = hc (ix2 r k) :=
  concatenate_pair_apply_right 1 hr hc concatenates_S500000x64_S500000x64_S500000x128_d1 (ix2 r (Fin.natAdd 64 k)) rfl rfl (ix2 r k)
    (fun b hb => by
      match b with
      | ⟨0, _⟩ => rfl
      | ⟨1, _⟩ => exact absurd rfl hb)
    (by show k.val + 64 = 64 + k.val; omega)

theorem decoder_apply (hr hc : FVec Ideal S500000x64 .f32) (W9 : FVec Ideal S128x64 .f32) (b10 : FVec Ideal S64 .f32)
    (w11 : FVec Ideal S64x1 .f32) (b12 : FVec Ideal S1 .f32) (r : Fin 500000) (z : Fin 1) :
    decoder hr hc W9 b10 w11 b12 (ix2 r z) = scoreAt hr hc W9 b10 w11 b12 r := by
  obtain rfl : z = 0 := Subsingleton.elim _ _
  unfold decoder scoreAt
  rw [addf_apply, dotLast_apply, bcast_row_apply, bcast_toRow_apply]
  refine congrArg (· + b12 (ix1 (0 : Fin 1))) (Finset.sum_congr rfl fun j _ => ?_)
  rw [maximumf_apply, addf_apply, dotJoined_apply, bcast_row_apply, bcast_toRow_apply, zeroSplat_apply]
  unfold hiddenAt
  have hsplit : (∑ k : Fin 128, concatenate S500000x128 1 [⟨S500000x64, hr⟩, ⟨S500000x64, hc⟩]
        concatenates_S500000x64_S500000x64_S500000x128_d1 (ix2 r k) * W9 (ix2 k j))
      = (∑ k : Fin 64, hr (ix2 r k) * W9 (ix2 (Fin.castAdd 64 k) j)) + ∑ k : Fin 64, hc (ix2 r k) * W9 (ix2 (Fin.natAdd 64 k) j) :=
    (Fin.sum_univ_add (a := 64) (b := 64) fun k : Fin (64 + 64) => concatenate S500000x128 1 [⟨S500000x64, hr⟩, ⟨S500000x64, hc⟩]
        concatenates_S500000x64_S500000x64_S500000x128_d1 (ix2 r k) * W9 (ix2 k j)).trans (by
      simp only [joined_left, joined_right])
  rw [hsplit]

end Cert.Bridge

end
-- ==== Proof.Payload.lean ====
/-
  What each kernel body stores, read at an index of its block, at the extended reals: the first two bodies store a layer
  of their loaded blocks — entry (p, q) is `comboAt` of the blocks (a change of float format is the identity, a matrix
  product into the zero accumulator is the sum over the 64 features, the bias vector is laid out as a row and repeated over
  the rows), the first body its maximum with 0 —, and the third stores the decoder's score of row p of its two row blocks
  against its two 64 × 64 weight blocks.
-/
import proofs.«124228_j36301063586078_2_alg».proof.Proof.Gen.KernelIdeal.Skeleton
import proofs.«124228_j36301063586078_2_alg».proof.Proof.Combo
import proofs.«124228_j36301063586078_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Bridge

/-- A 10000 × 64 block times a 64 × 64 block into the zero accumulator, whatever the operands' formats, at (p, q). -/
theorem mmBlock_apply {φ₁ φ₂ : FTy} (x : FVec Ideal S10000x64 φ₁) (w : FVec Ideal S64x64 φ₂) (p : Fin 10000) (q : Fin 64) :
    matmul dot_S10000x64_S64x64_S10000x64_1_0_0_1_n_n none x w (constant S10000x64 .f32 0x00000000#32) (ix2 p q)
      = ∑ k : Fin 64, x (ix2 p k) * w (ix2 k q) :=
  PlainMatmul.plainMatmul_apply none x w p q

/-- A 10000 × 64 block times a 64 × 1 column into the zero accumulator, at (p, z). -/
theorem mmCol_apply {φ₁ φ₂ : FTy} (x : FVec Ideal S10000x64 φ₁) (w : FVec Ideal S64x1 φ₂) (p : Fin 10000) (z : Fin 1) :
    matmul dot_S10000x64_S64x1_S10000x1_1_0_0_1_n_n none x w (constant S10000x1 .f32 0x00000000#32) (ix2 p z)
      = ∑ k : Fin 64, x (ix2 p k) * w (ix2 k z) :=
  PlainMatmul.plainMatmul_apply none x w p z

/-- The bias vector laid out as a row and repeated over the 10000 rows, at (p, q). -/
theorem biasRows_apply (b : Vec Ideal S64 .f32) (p : Fin 10000) (q : Fin 64) :
    broadcastTo S10000x64 (shapeCast S1x64 b shapeCasts_S64_S1x64) broadcasts_S1x64_S10000x64 (ix2 p q) = b (ix1 q) := by
  rw [broadcastTo_1b_ab_apply, shapeCast_a_1a_apply]

/-- The one-entry bias laid out as a 1 × 1 matrix and repeated over the 10000 rows, at (p, z). -/
theorem biasOne_apply (b : Vec Ideal S1 .f32) (p : Fin 10000) (z : Fin 1) :
    broadcastTo S10000x1 (shapeCast S1x1 b shapeCasts_S1_S1x1) broadcasts_S1x1_S10000x1 (ix2 p z) = b (ix1 z) := by
  rw [broadcastTo_1b_ab_apply, shapeCast_a_1a_apply]

/-- The first body's stored block at (p, q). -/
theorem pay0_apply (a x : Vec Ideal S10000x64 .f32) (wl wr : Vec Ideal S64x64 .f32) (b : Vec Ideal S64 .f32)
    (p : Fin 10000) (q : Fin 64) :
    k0_pay1 (F := Ideal) a x wl wr b (ix2 p q) = max (comboAt a x wl b wr p q) 0 := by
  unfold k0_pay1 comboAt
  simp only [shapeCast_self]
  rw [maximumf_apply, addf_apply, addf_apply, mmBlock_apply, mmBlock_apply, biasRows_apply, broadcast_apply]
  simp only [truncf_apply]
  exact congrArg (max _) Ideal.ofBits_zero_f32

/-- The second body's stored block at (p, q). -/
theorem pay1_apply (a x : Vec Ideal S10000x64 .f32) (wl wr : Vec Ideal S64x64 .f32) (b : Vec Ideal S64 .f32)
    (p : Fin 10000) (q : Fin 64) :
    k1_pay1 (F := Ideal) a x wl wr b (ix2 p q) = comboAt a x wl b wr p q := by
  unfold k1_pay1 comboAt
  simp only [shapeCast_self]
  rw [addf_apply, addf_apply, mmBlock_apply, mmBlock_apply, biasRows_apply]
  simp only [truncf_apply]

/-- The third body's stored block at (p, z): the score of row p. -/
theorem pay2_apply (hr hc : Vec Ideal S10000x64 .f32) (wt wb : Vec Ideal S64x64 .f32) (b : Vec Ideal S64 .f32)
    (w : Vec Ideal S64x1 .f32) (b' : Vec Ideal S1 .f32) (p : Fin 10000) (z : Fin 1) :
    k2_pay1 (F := Ideal) hr hc wt wb b w b' (ix2 p z)
      = (∑ j : Fin 64, max (((∑ k : Fin 64, hr (ix2 p k) * wt (ix2 k j)) + ∑ k : Fin 64, hc (ix2 p k) * wb (ix2 k j))
            + b (ix1 j)) 0 * w (ix2 j z)) + b' (ix1 z) := by
  have hz : (Scalar.ofBits .f32 0x00000000#32 : Ideal .f32) = (0 : EReal) := Ideal.ofBits_zero_f32
  unfold k2_pay1
  simp only [shapeCast_self]
  rw [addf_apply, mmCol_apply, biasOne_apply]
  refine congrArg (· + b' (ix1 z)) (Finset.sum_congr rfl fun j _ => ?_)
  rw [truncf_apply, truncf_apply, maximumf_apply, addf_apply, addf_apply, mmBlock_apply, mmBlock_apply, biasRows_apply,
    broadcast_apply, hz]
  simp only [truncf_apply]

end Cert.KernelIdeal.Payload

end
-- ==== Proof.Region0.lean ====
/-
  The first kernel's output array. Its grid has 10 points; point t reads rows 10000 t … 10000 t + 9999 of the aggregate and
  of the node features, the whole of the two weight matrices and of the bias, and writes the same rows of the output. So
  what point t writes back is the block of rows 10000 t … of max(A · Wl + b + X · Wr, 0) taken over the whole arrays (a
  row of the product depends on that row of A and X only), and the ten blocks cover every row.
-/
import proofs.«124228_j36301063586078_2_alg».proof.Proof.RegionClaims
import proofs.«124228_j36301063586078_2_alg».proof.Proof.SpecRead
import proofs.«124228_j36301063586078_2_alg».proof.Proof.Payload
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen Cert.Bridge Cert.KernelIdeal.Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row windows are at block (t, 0), the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 10000 t + p of the array. -/
def row (t : Fin cfg0.N) (p : Fin 10000) : Fin 100000 :=
  ⟨t.val * 10000 + p.val, by have h : t.val < 10 := Nat.lt_of_lt_of_eq t.isLt N_0; have := p.isLt; omega⟩

theorem emb0 (t : Fin cfg0.N) (p : Fin 10000) (k : Fin 64) :
    (((cfg0.win 0).blk t).view.emb (ix2 p k) : S100000x64.Idx) = ix2 (row t p) k := by
  obtain ⟨e00, e01, -⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

theorem emb1 (t : Fin cfg0.N) (p : Fin 10000) (k : Fin 64) :
    (((cfg0.win 1).blk t).view.emb (ix2 p k) : S100000x64.Idx) = ix2 (row t p) k := by
  obtain ⟨-, -, e10, e11, -⟩ := idx_facts t
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

theorem emb2 (t : Fin cfg0.N) (k q : Fin 64) :
    (((cfg0.win 2).blk t).view.emb (ix2 k q) : S64x64.Idx) = ix2 k q := by
  obtain ⟨-, -, -, -, e20, e21, -⟩ := idx_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

theorem emb3 (t : Fin cfg0.N) (q : Fin 64) :
    (((cfg0.win 3).blk t).view.emb (ix1 q) : S64.Idx) = ix1 q := by
  obtain ⟨-, -, -, -, -, -, e30, -⟩ := idx_facts t
  funext a; apply Fin.ext
  match a with
  | ⟨0, _⟩ => show win0_3.index t (0 : Fin 1) * 64 + 1 * q.val = q.val; omega

theorem emb4 (t : Fin cfg0.N) (k q : Fin 64) :
    (((cfg0.win 4).blk t).view.emb (ix2 k q) : S64x64.Idx) = ix2 k q := by
  obtain ⟨-, -, -, -, -, -, -, e40, e41, -⟩ := idx_facts t
  funext a; apply Fin.ext
  match a with
  | ⟨0, _⟩ => show win0_4.index t (0 : Fin 2) * 64 + 1 * k.val = k.val; omega
  | ⟨1, _⟩ => show win0_4.index t (1 : Fin 2) * 64 + 1 * q.val = q.val; omega

theorem emb5 (t : Fin cfg0.N) (p : Fin 10000) (q : Fin 64) :
    (((cfg0.win 5).blk t).view.emb (ix2 p q) : S100000x64.Idx) = ix2 (row t p) q := by
  obtain ⟨-, -, -, -, -, -, -, -, -, e50, e51⟩ := idx_facts t
  funext a; apply Fin.ext
  match a with
  | ⟨0, _⟩ => show win0_5.index t (0 : Fin 2) * 10000 + 1 * p.val = t.val * 10000 + p.val; omega
  | ⟨1, _⟩ => show win0_5.index t (1 : Fin 2) * 64 + 1 * q.val = q.val; omega

/-- What point t writes back is block t of the layer of the whole arrays. -/
theorem flushed_eq (c : Dev nD) (t : Fin cfg0.N) :
    (dat0 (F := Ideal) V c).flushed 5 t = ((cfg0.win 5).blk t).view.read (Elt Ideal)
      (layerRelu (V c main_v22) (V c main_arg0) (V c main_arg3) (V c main_arg4) (V c main_arg5)) := by
  show (cfg0.win 5).cut (grid0.coords t) ((dat0 (F := Ideal) V c).after 5 t) = _
  rw [after0_5]
  unfold out0_5
  rw [View.canon_unit_zero hz2]
  simp only [View.ld_unit_zero (S := S10000x64) hz2, View.ld_unit_zero (S := S64x64) hz2, View.ld_unit_zero (S := S64) hz1]
  funext y
  obtain ⟨p, q, rfl⟩ : ∃ (p : Fin 10000) (q : Fin 64), y = ix2 p q := ⟨y 0, y 1, eq_ix2 y⟩
  show k0_pay1 (F := Ideal) (iblk0 V c 0 t) (iblk0 V c 1 t) (iblk0 V c 2 t) (iblk0 V c 4 t) (iblk0 V c 3 t) (ix2 p q)
    = layerRelu (V c main_v22) (V c main_arg0) (V c main_arg3) (V c main_arg4) (V c main_arg5) (((cfg0.win 5).blk t).view.emb (ix2 p q))
  rw [emb5 t p q, layerRelu_apply, pay0_apply]
  refine congrArg (max · 0) ?_
  unfold comboAt
  have hA : ∀ k : Fin 64, iblk0 V c 0 t (ix2 p k) = V c main_v22 (ix2 (row t p) k) := fun k => congrArg (V c main_v22) (emb0 t p k)
  have hX : ∀ k : Fin 64, iblk0 V c 1 t (ix2 p k) = V c main_arg0 (ix2 (row t p) k) := fun k => congrArg (V c main_arg0) (emb1 t p k)
  have hWl : ∀ k : Fin 64, iblk0 V c 2 t (ix2 k q) = V c main_arg3 (ix2 k q) := fun k => congrArg (V c main_arg3) (emb2 t k q)
  have hb : iblk0 V c 3 t (ix1 q) = V c main_arg4 (ix1 q) := congrArg (V c main_arg4) (emb3 t q)
  have hWr : ∀ k : Fin 64, iblk0 V c 4 t (ix2 k q) = V c main_arg5 (ix2 k q) := fun k => congrArg (V c main_arg5) (emb4 t k q)
  simp only [hA, hX, hWl, hb, hWr]

/-- An index of the output array is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v23).slice (win0_5.rect t)).set ↔ _
  rw [View.set_slice_whole, Rect.mem_set_unit]
  exact Iff.rfl

/-- Every row lies in the block of the point numbered by its ten-thousands. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, -, -, -, -, -, e50, e51⟩ := idx_facts t
  have ht : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The first kernel's output array is max(A · Wl + b + X · Wr, 0) of its operand arrays. -/
theorem layer1 : Cert.KernelIdeal.Regions.Layer1 := fun V c =>
  (dat0 (F := Ideal) V c).arrAt_eq_of_cover 5 _ (fun t _ => flushed_eq V c t) cover

end Cert.KernelIdeal.Region0

end
-- ==== Proof.Region1.lean ====
/-
  The second kernel's output array. Its grid has 10 points; point t reads rows 10000 t … 10000 t + 9999 of the aggregate
  and of the first layer's features, the whole of the two weight matrices and of the bias, and writes the same rows of the
  output. So what point t writes back is the block of rows 10000 t … of A · Wl + b + X · Wr taken over the whole arrays,
  and the ten blocks cover every row.
-/
import proofs.«124228_j36301063586078_2_alg».proof.Proof.RegionClaims
import proofs.«124228_j36301063586078_2_alg».proof.Proof.SpecRead
import proofs.«124228_j36301063586078_2_alg».proof.Proof.Payload
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen Cert.Bridge Cert.KernelIdeal.Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row windows are at block (t, 0), the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 10000 t + p of the array. -/
def row (t : Fin cfg1.N) (p : Fin 10000) : Fin 100000 :=
  ⟨t.val * 10000 + p.val, by have h : t.val < 10 := Nat.lt_of_lt_of_eq t.isLt N_1; have := p.isLt; omega⟩

theorem emb0 (t : Fin cfg1.N) (p : Fin 10000) (k : Fin 64) :
    (((cfg1.win 0).blk t).view.emb (ix2 p k) : S100000x64.Idx) = ix2 (row t p) k := by
  obtain ⟨e00, e01, -⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

theorem emb1 (t : Fin cfg1.N) (p : Fin 10000) (k : Fin 64) :
    (((cfg1.win 1).blk t).view.emb (ix2 p k) : S100000x64.Idx) = ix2 (row t p) k := by
  obtain ⟨-, -, e10, e11, -⟩ := idx_facts t
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

theorem emb2 (t : Fin cfg1.N) (k q : Fin 64) :
    (((cfg1.win 2).blk t).view.emb (ix2 k q) : S64x64.Idx) = ix2 k q := by
  obtain ⟨-, -, -, -, e20, e21, -⟩ := idx_facts t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

theorem emb3 (t : Fin cfg1.N) (q : Fin 64) :
    (((cfg1.win 3).blk t).view.emb (ix1 q) : S64.Idx) = ix1 q := by
  obtain ⟨-, -, -, -, -, -, e30, -⟩ := idx_facts t
  funext a; apply Fin.ext
  match a with
  | ⟨0, _⟩ => show win1_3.index t (0 : Fin 1) * 64 + 1 * q.val = q.val; omega

theorem emb4 (t : Fin cfg1.N) (k q : Fin 64) :
    (((cfg1.win 4).blk t).view.emb (ix2 k q) : S64x64.Idx) = ix2 k q := by
  obtain ⟨-, -, -, -, -, -, -, e40, e41, -⟩ := idx_facts t
  funext a; apply Fin.ext
  match a with
  | ⟨0, _⟩ => show win1_4.index t (0 : Fin 2) * 64 + 1 * k.val = k.val; omega
  | ⟨1, _⟩ => show win1_4.index t (1 : Fin 2) * 64 + 1 * q.val = q.val; omega

theorem emb5 (t : Fin cfg1.N) (p : Fin 10000) (q : Fin 64) :
    (((cfg1.win 5).blk t).view.emb (ix2 p q) : S100000x64.Idx) = ix2 (row t p) q := by
  obtain ⟨-, -, -, -, -, -, -, -, -, e50, e51⟩ := idx_facts t
  funext a; apply Fin.ext
  match a with
  | ⟨0, _⟩ => show win1_5.index t (0 : Fin 2) * 10000 + 1 * p.val = t.val * 10000 + p.val; omega
  | ⟨1, _⟩ => show win1_5.index t (1 : Fin 2) * 64 + 1 * q.val = q.val; omega

/-- What point t writes back is block t of the layer of the whole arrays. -/
theorem flushed_eq (c : Dev nD) (t : Fin cfg1.N) :
    (dat1 (F := Ideal) V c).flushed 5 t = ((cfg1.win 5).blk t).view.read (Elt Ideal)
      (layerLin (V c main_v35) (V c main_v23) (V c main_arg6) (V c main_arg7) (V c main_arg8)) := by
  show (cfg1.win 5).cut (grid1.coords t) ((dat1 (F := Ideal) V c).after 5 t) = _
  rw [after1_5]
  unfold out1_5
  rw [View.canon_unit_zero hz2]
  simp only [View.ld_unit_zero (S := S10000x64) hz2, View.ld_unit_zero (S := S64x64) hz2, View.ld_unit_zero (S := S64) hz1]
  funext y
  obtain ⟨p, q, rfl⟩ : ∃ (p : Fin 10000) (q : Fin 64), y = ix2 p q := ⟨y 0, y 1, eq_ix2 y⟩
  show k1_pay1 (F := Ideal) (iblk1 V c 0 t) (iblk1 V c 1 t) (iblk1 V c 2 t) (iblk1 V c 4 t) (iblk1 V c 3 t) (ix2 p q)
    = layerLin (V c main_v35) (V c main_v23) (V c main_arg6) (V c main_arg7) (V c main_arg8) (((cfg1.win 5).blk t).view.emb (ix2 p q))
  rw [emb5 t p q, layerLin_apply, pay1_apply]
  unfold comboAt
  have hA : ∀ k : Fin 64, iblk1 V c 0 t (ix2 p k) = V c main_v35 (ix2 (row t p) k) := fun k => congrArg (V c main_v35) (emb0 t p k)
  have hX : ∀ k : Fin 64, iblk1 V c 1 t (ix2 p k) = V c main_v23 (ix2 (row t p) k) := fun k => congrArg (V c main_v23) (emb1 t p k)
  have hWl : ∀ k : Fin 64, iblk1 V c 2 t (ix2 k q) = V c main_arg6 (ix2 k q) := fun k => congrArg (V c main_arg6) (emb2 t k q)
  have hb : iblk1 V c 3 t (ix1 q) = V c main_arg7 (ix1 q) := congrArg (V c main_arg7) (emb3 t q)
  have hWr : ∀ k : Fin 64, iblk1 V c 4 t (ix2 k q) = V c main_arg8 (ix2 k q) := fun k => congrArg (V c main_arg8) (emb4 t k q)
  simp only [hA, hX, hWl, hb, hWr]

/-- An index of the output array is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v36).slice (win1_5.rect t)).set ↔ _
  rw [View.set_slice_whole, Rect.mem_set_unit]
  exact Iff.rfl

/-- Every row lies in the block of the point numbered by its ten-thousands. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨-, -, -, -, -, -, -, -, -, e50, e51⟩ := idx_facts t
  have ht : t.val = (i 0).val / 10000 := rfl
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The second kernel's output array is A · Wl + b + X · Wr of its operand arrays. -/
theorem layer2 : Cert.KernelIdeal.Regions.Layer2 := fun V c =>
  (dat1 (F := Ideal) V c).arrAt_eq_of_cover 5 _ (fun t _ => flushed_eq V c t) cover

end Cert.KernelIdeal.Region1

end
-- ==== Proof.Region2.lean ====
/-
  The third kernel's output array. Its grid has 50 points; point t reads rows 10000 t … 10000 t + 9999 of the two gathered
  row arrays, the whole of its two 64 × 64 weight operands, of the bias, of the last weight column and of the last bias,
  and writes the same rows of the one-column output. When the two weight operands are the upper and the lower 64 rows of
  one 128 × 64 matrix W, what point t writes back is the block of rows 10000 t … of the decoder of the whole arrays — the
  row of the first array against rows 0 … 63 of W plus the row of the second against rows 64 … 127 is the joined row
  against W —, and the fifty blocks cover every row.
-/
import proofs.«124228_j36301063586078_2_alg».proof.Proof.RegionClaims
import proofs.«124228_j36301063586078_2_alg».proof.Proof.SpecRead
import proofs.«124228_j36301063586078_2_alg».proof.Proof.Payload
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen Cert.Bridge Cert.KernelIdeal.Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row windows are at block (t, 0), every other operand at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Row p of point t's block is row 10000 t + p of the array. -/
def row (t : Fin cfg2.N) (p : Fin 10000) : Fin 500000 :=
  ⟨t.val * 10000 + p.val, by have h : t.val < 50 := Nat.lt_of_lt_of_eq t.isLt N_2; have := p.isLt; omega⟩

theorem emb0 (t : Fin cfg2.N) (p : Fin 10000) (k : Fin 64) :
    (((cfg2.win 0).blk t).view.emb (ix2 p k) : S500000x64.Idx) = ix2 (row t p) k := by
  obtain ⟨e00, e01, -⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

theorem emb1 (t : Fin cfg2.N) (p : Fin 10000) (k : Fin 64) :
    (((cfg2.win 1).blk t).view.emb (ix2 p k) : S500000x64.Idx) = ix2 (row t p) k := by
  obtain ⟨-, -, e10, e11, -⟩ := idx_facts t
  funext a; apply Fin.ext
  match a with
  | ⟨0, _⟩ => show win2_1.index t (0 : Fin 2) * 10000 + 1 * p.val = t.val * 10000 + p.val; omega
  | ⟨1, _⟩ => show win2_1.index t (1 : Fin 2) * 64 + 1 * k.val = k.val; omega

theorem emb2 (t : Fin cfg2.N) (k q : Fin 64) :
    (((cfg2.win 2).blk t).view.emb (ix2 k q) : S64x64.Idx) = ix2 k q := by
  obtain ⟨-, -, -, -, e20, e21, -⟩ := idx_facts t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

theorem emb3 (t : Fin cfg2.N) (k q : Fin 64) :
    (((cfg2.win 3).blk t).view.emb (ix2 k q) : S64x64.Idx) = ix2 k q := by
  obtain ⟨-, -, -, -, -, -, e30, e31, -⟩ := idx_facts t
  funext a; apply Fin.ext
  match a with
  | ⟨0, _⟩ => show win2_3.index t (0 : Fin 2) * 64 + 1 * k.val = k.val; omega
  | ⟨1, _⟩ => show win2_3.index t (1 : Fin 2) * 64 + 1 * q.val = q.val; omega

theorem emb4 (t : Fin cfg2.N) (q : Fin 64) :
    (((cfg2.win 4).blk t).view.emb (ix1 q) : S64.Idx) = ix1 q := by
  obtain ⟨-, -, -, -, -, -, -, -, e40, -⟩ := idx_facts t
  funext a; apply Fin.ext
  match a with
  | ⟨0, _⟩ => show win2_4.index t (0 : Fin 1) * 64 + 1 * q.val = q.val; omega

theorem emb5 (t : Fin cfg2.N) (k : Fin 64) (z : Fin 1) :
    (((cfg2.win 5).blk t).view.emb (ix2 k z) : S64x1.Idx) = ix2 k z := by
  obtain ⟨-, -, -, -, -, -, -, -, -, e50, e51, -⟩ := idx_facts t
  funext a; apply Fin.ext
  match a with
  | ⟨0, _⟩ => show win2_5.index t (0 : Fin 2) * 64 + 1 * k.val = k.val; omega
  | ⟨1, _⟩ => show win2_5.index t (1 : Fin 2) * 1 + 1 * z.val = z.val; omega

theorem emb6 (t : Fin cfg2.N) (z : Fin 1) :
    (((cfg2.win 6).blk t).view.emb (ix1 z) : S1.Idx) = ix1 z := by
  obtain ⟨-, -, -, -, -, -, -, -, -, -, -, e60, -⟩ := idx_facts t
  funext a; apply Fin.ext
  match a with
  | ⟨0, _⟩ => show win2_6.index t (0 : Fin 1) * 1 + 1 * z.val = z.val; omega

theorem emb7 (t : Fin cfg2.N) (p : Fin 10000) (z : Fin 1) :
    (((cfg2.win 7).blk t).view.emb (ix2 p z) : S500000x1.Idx) = ix2 (row t p) z := by
  obtain ⟨-, -, -, -, -, -, -, -, -, -, -, -, e70, e71⟩ := idx_facts t
  funext a; apply Fin.ext
  match a with
  | ⟨0, _⟩ => show win2_7.index t (0 : Fin 2) * 10000 + 1 * p.val = t.val * 10000 + p.val; omega
  | ⟨1, _⟩ => show win2_7.index t (1 : Fin 2) * 1 + 1 * z.val = z.val; omega

/-- What point t writes back is block t of the decoder of the whole arrays. -/
theorem flushed_eq (c : Dev nD) (W9 : FVec Ideal S128x64 .f32)
    (hT : V c main_v55 = extractStridedSlice S64x64 ![0, 0] W9 slices_S128x64_S64x64_0_0)
    (hB : V c main_v56 = extractStridedSlice S64x64 ![64, 0] W9 slices_S128x64_S64x64_64_0) (t : Fin cfg2.N) :
    (dat2 (F := Ideal) V c).flushed 7 t = ((cfg2.win 7).blk t).view.read (Elt Ideal)
      (decoder (V c main_v47) (V c main_v54) W9 (V c main_arg10) (V c main_arg11) (V c main_arg12)) := by
  show (cfg2.win 7).cut (grid2.coords t) ((dat2 (F := Ideal) V c).after 7 t) = _
  rw [after2_7]
  unfold out2_7
  rw [View.canon_unit_zero hz2]
  simp only [View.ld_unit_zero (S := S10000x64) hz2, View.ld_unit_zero (S := S64x64) hz2, View.ld_unit_zero (S := S64) hz1,
    View.ld_unit_zero (S := S64x1) hz2, View.ld_unit_zero (S := S1) hz1]
  funext y
  obtain ⟨p, z, rfl⟩ : ∃ (p : Fin 10000) (z : Fin 1), y = ix2 p z := ⟨y 0, y 1, eq_ix2 y⟩
  show k2_pay1 (F := Ideal) (iblk2 V c 0 t) (iblk2 V c 1 t) (iblk2 V c 2 t) (iblk2 V c 3 t) (iblk2 V c 4 t) (iblk2 V c 5 t) (iblk2 V c 6 t) (ix2 p z)
    = decoder (V c main_v47) (V c main_v54) W9 (V c main_arg10) (V c main_arg11) (V c main_arg12) (((cfg2.win 7).blk t).view.emb (ix2 p z))
  rw [emb7 t p z, decoder_apply, pay2_apply]
  unfold scoreAt hiddenAt
  obtain rfl : z = 0 := Subsingleton.elim _ _
  have hHr : ∀ k : Fin 64, iblk2 V c 0 t (ix2 p k) = V c main_v47 (ix2 (row t p) k) := fun k => congrArg (V c main_v47) (emb0 t p k)
  have hHc : ∀ k : Fin 64, iblk2 V c 1 t (ix2 p k) = V c main_v54 (ix2 (row t p) k) := fun k => congrArg (V c main_v54) (emb1 t p k)
  have hWt : ∀ k j : Fin 64, iblk2 V c 2 t (ix2 k j) = W9 (ix2 (Fin.castAdd 64 k) j) := fun k j =>
    (congrArg (V c main_v55) (emb2 t k j)).trans ((congrFun hT (ix2 k j)).trans
      (slice2_axis0_apply 0 W9 slices_S128x64_S64x64_0_0 k j (Fin.castAdd 64 k) (by show k.val = 0 + k.val; omega)))
  have hWb : ∀ k j : Fin 64, iblk2 V c 3 t (ix2 k j) = W9 (ix2 (Fin.natAdd 64 k) j) := fun k j =>
    (congrArg (V c main_v56) (emb3 t k j)).trans ((congrFun hB (ix2 k j)).trans
      (slice2_axis0_apply 64 W9 slices_S128x64_S64x64_64_0 k j (Fin.natAdd 64 k) (by show 64 + k.val = 64 + k.val; rfl)))
  have hb : ∀ j : Fin 64, iblk2 V c 4 t (ix1 j) = V c main_arg10 (ix1 j) := fun j => congrArg (V c main_arg10) (emb4 t j)
  have hw : ∀ j : Fin 64, iblk2 V c 5 t (ix2 j (0 : Fin 1)) = V c main_arg11 (ix2 j (0 : Fin 1)) := fun j => congrArg (V c main_arg11) (emb5 t j 0)
  have hb' : iblk2 V c 6 t (ix1 (0 : Fin 1)) = V c main_arg12 (ix1 (0 : Fin 1)) := congrArg (V c main_arg12) (emb6 t 0)
  simp only [hHr, hHc, hWt, hWb, hb, hw, hb']

/-- An index of the output array is in point t's block iff each coordinate is in the block's range on its axis. -/
theorem mem_blk (t : Fin cfg2.N) (i : S500000x1.Idx) :
    i ∈ ((cfg2.win 7).blk t).view.set ↔ ∀ a : Fin 2, win2_7.index t a * S10000x1.size a ≤ (i a).val
      ∧ (i a).val < win2_7.index t a * S10000x1.size a + S10000x1.size a := by
  show i ∈ ((View.whole main_v57).slice (win2_7.rect t)).set ↔ _
  rw [View.set_slice_whole, Rect.mem_set_unit]
  exact Iff.rfl

/-- Every row lies in the block of the point numbered by its ten-thousands. -/
theorem cover (i : S500000x1.Idx) : ∃ t : Fin cfg2.N, (cfg2.win 7).flush t = true ∧ i ∈ ((cfg2.win 7).blk t).view.set := by
  have hi0 : (i 0).val < 500000 := (i 0).isLt
  have hi1 : (i 1).val < 1 := (i 1).isLt
  let t : Fin cfg2.N := ⟨(i 0).val / 10000, by rw [show cfg2.N = 50 from N_2]; omega⟩
  obtain ⟨-, -, -, -, -, -, -, -, -, -, -, -, e70, e71⟩ := idx_facts t
  have ht : t.val = (i 0).val / 10000 := rfl
  refine ⟨t, flush2_7 t, ?_⟩
  rw [mem_blk]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 1 ≤ (i 1).val ∧ (i 1).val < win2_7.index t (1 : Fin 2) * 1 + 1; omega

/-- The third kernel's output array is the decoder of its operand arrays. -/
theorem decoder_region : Cert.KernelIdeal.Regions.Decoder := fun V c W9 hT hB =>
  (dat2 (F := Ideal) V c).arrAt_eq_of_cover 7 _ (fun t _ => flushed_eq V c W9 hT hB t) cover

end Cert.KernelIdeal.Region2

end
-- ==== Proof.RefValue.lean ====
/-
  The reference program, read one operation at a time, is the function `Cert.Bridge.result` of its arguments: its first
  stretch of operations is the mean aggregate of the node features, the next a layer followed by max(·, 0), then the
  aggregate and the layer again, then the two gathers at the labelled edges' end points and the decoder.
-/
import proofs.«124228_j36301063586078_2_alg».proof.Proof.Gen.ReferenceIdeal.Read
import proofs.«124228_j36301063586078_2_alg».proof.Proof.Spec

noncomputable section

namespace Cert.ReferenceIdeal.RefValue

open Idealize.ShloMosaic Cert.ReferenceIdeal Cert.ReferenceIdeal.Gen Cert.ReferenceIdeal.Read Cert.Bridge

/-- max(1, in-degree), repeated along the features. -/
theorem degree_eq (x1 : (⟨S2x1600000, .i32⟩ : BufTy).Contents (Elt Ideal)) : val_main_v21 (F := Ideal) x1 = degree x1 := by
  unfold val_main_v21 val_main_v20 val_main_v19 val_main_v18 val_main_cst_3 val_main_v17 val_main_v16 val_main_v15 val_main_cst_2
    val_main_v14 val_main_cst_1 val_main_v3 val_main_v2 degree dstIdx
  rfl

/-- The first aggregate. -/
theorem agg1_eq (x0 : (⟨S100000x64, .f32⟩ : BufTy).Contents (Elt Ideal)) (x1 : (⟨S2x1600000, .i32⟩ : BufTy).Contents (Elt Ideal)) : val_main_v22 (F := Ideal) x0 x1 = meanAgg x0 x1 := by
  unfold val_main_v22
  rw [degree_eq]
  unfold val_main_v13 val_main_v12 val_main_v11 val_main_cst val_main_v10 val_main_v9 val_main_v8 val_main_v7 val_main_v6 val_main_c_0
    val_main_v5 val_main_v4 val_main_c val_main_v3 val_main_v2 val_main_v1 val_main_v0 meanAgg dstIdx srcIdx
  rfl

/-- The first layer. -/
theorem z1_eq (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) : val_main_v29 (F := Ideal) x0 x1 x3 x4 x5 = z1 x0 x1 x3 x4 x5 := by
  unfold val_main_v29 val_main_v28 val_main_v27 val_main_v26 val_main_v25 val_main_v24 val_main_v23 val_main_call0_v0 val_main_call0_cst
  rw [agg1_eq]
  unfold z1 layerRelu layerLin
  rfl

/-- The second aggregate: the same operations applied to the first layer's features. -/
theorem agg2_eq (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) : val_main_v48 (F := Ideal) x0 x1 x3 x4 x5 = meanAgg (z1 x0 x1 x3 x4 x5) x1 := by
  unfold val_main_v48 val_main_v47 val_main_v46 val_main_v45 val_main_v44 val_main_cst_9 val_main_v43 val_main_v42 val_main_v41
    val_main_cst_8 val_main_v40 val_main_cst_7 val_main_v39 val_main_v38 val_main_v37 val_main_cst_6 val_main_v36
  rw [z1_eq]
  unfold val_main_v35 val_main_v34 val_main_v33 val_main_v32 val_main_c_5 val_main_v31 val_main_v30 val_main_c_4 val_main_v3 val_main_v2
    val_main_v1 val_main_v0 meanAgg degree dstIdx srcIdx
  rfl

/-- The second layer. -/
theorem z2_eq (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) : val_main_v54 (F := Ideal) x0 x1 x3 x4 x5 x6 x7 x8 = z2 x0 x1 x3 x4 x5 x6 x7 x8 := by
  unfold val_main_v54 val_main_v53 val_main_v52 val_main_v51 val_main_v50 val_main_v49
  rw [agg2_eq, z1_eq]
  unfold z2 layerLin
  rfl

/-- The whole reference. -/
theorem result_eq (x0 : (⟨S100000x64, .f32⟩ : BufTy).Contents (Elt Ideal)) (x1 : (⟨S2x1600000, .i32⟩ : BufTy).Contents (Elt Ideal)) (x2 : (⟨S2x500000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S128x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal)) :
    val_main_v83 (F := Ideal) x0 x1 x2 x3 x4 x5 x6 x7 x8 x9 x10 x11 x12 = result x0 x1 x2 x3 x4 x5 x6 x7 x8 x9 x10 x11 x12 := by
  unfold val_main_v83 val_main_v82 val_main_v81 val_main_v80 val_main_v79 val_main_v78 val_main_call1_v0 val_main_call1_cst val_main_v77
    val_main_v76 val_main_v75 val_main_v74 val_main_v73 val_main_v72 val_main_v65
  rw [z2_eq]
  unfold val_main_v71 val_main_v70 val_main_v69 val_main_v68 val_main_c_13 val_main_v67 val_main_v66 val_main_c_12 val_main_v64 val_main_v63
    val_main_v62 val_main_v61 val_main_c_11 val_main_v60 val_main_v59 val_main_c_10 val_main_v58 val_main_v57 val_main_v56 val_main_v55
    result decoder rowIdx colIdx
  rfl

end Cert.ReferenceIdeal.RefValue

end
-- ==== Proof.KernelRun.lean ====
/-
  The run of the kernel program's @main with its result named. From any launch memory with zero counters every weakly
  fair execution on the TensorCores terminates without fault; in the final state the result buffer holds what the fold
  of buffer contents through @main (four stretches of host operations around three kernel regions) leaves in it at the
  last boundary, and every argument array holds what it held at launch.
-/
import proofs.«124228_j36301063586078_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- @main runs; the result buffer ends at the last boundary's contents, every argument array as launched. The segments,
    the chain of thread states and the launch are the frame's; the final state is read at one more buffer, the result. -/
theorem run : θ_run defs (onTc (τ := τ) (main (F := F))) ⟨m, fun _ => 0, ρ⟩ (fun r => ∀ c : Dev nD,
      r.2.mem ((c.tc : Thread nD τ).loc main_v58) = Gen.W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (Gen.mem_uc main_v58 (by decide)),
       (h c _ (Gen.mem_uc main_arg0 (by decide))).trans (Gen.W7_main_arg0 m ρ c),
       (h c _ (Gen.mem_uc main_arg1 (by decide))).trans (Gen.W7_main_arg1 m ρ c),
       (h c _ (Gen.mem_uc main_arg2 (by decide))).trans (Gen.W7_main_arg2 m ρ c),
       (h c _ (Gen.mem_uc main_arg3 (by decide))).trans (Gen.W7_main_arg3 m ρ c),
       (h c _ (Gen.mem_uc main_arg4 (by decide))).trans (Gen.W7_main_arg4 m ρ c),
       (h c _ (Gen.mem_uc main_arg5 (by decide))).trans (Gen.W7_main_arg5 m ρ c),
       (h c _ (Gen.mem_uc main_arg6 (by decide))).trans (Gen.W7_main_arg6 m ρ c),
       (h c _ (Gen.mem_uc main_arg7 (by decide))).trans (Gen.W7_main_arg7 m ρ c),
       (h c _ (Gen.mem_uc main_arg8 (by decide))).trans (Gen.W7_main_arg8 m ρ c),
       (h c _ (Gen.mem_uc main_arg9 (by decide))).trans (Gen.W7_main_arg9 m ρ c),
       (h c _ (Gen.mem_uc main_arg10 (by decide))).trans (Gen.W7_main_arg10 m ρ c),
       (h c _ (Gen.mem_uc main_arg11 (by decide))).trans (Gen.W7_main_arg11 m ρ c),
       (h c _ (Gen.mem_uc main_arg12 (by decide))).trans (Gen.W7_main_arg12 m ρ c)⟩)

end Cert.KernelIdeal.ValueRun

end
-- ==== Proof.KernelFold.lean ====
/-
  The result buffer's final contents as one function of the launch memory.

  @main is four stretches of host operations around three kernels. The first stretch cuts the edge list into its two
  rows, counts every node's incoming edges (at least 1) and forms the mean over the in-neighbours of the node features;
  the first kernel turns that mean and the features into the first layer's features. The second stretch forms the same
  mean of the first layer's features, reusing the rows and the counts the first stretch left; the second kernel turns it
  into the second layer's features. The third stretch gathers those at the two end points of every labelled edge and
  cuts the decoder's 128 × 64 weight into its upper and lower half; the third kernel is the decoder. The last stretch
  flattens the column of scores. Read backwards from the result buffer, each boundary's contents are the next one's
  operands, and the whole is the reference function `Cert.Bridge.result` of the thirteen launch arrays. What each kernel
  leaves in its output array is taken as a hypothesis (one per kernel).
-/
import proofs.«124228_j36301063586078_2_alg».proof.Proof.RegionClaims

set_option maxRecDepth 16384

noncomputable section

namespace Cert.KernelIdeal.Fold

open Idealize.ShloMosaic Idealize.ShloMosaic.TcCoe Idealize.SL.Sem Cert.KernelIdeal Cert.KernelIdeal.Gen

/-! ## Which buffers a stretch writes -/

/-- The buffers the first stretch writes. -/
abbrev written0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_cst_3, main_v18, main_v19, main_v20, main_v21, main_v22]
/-- The buffers the second stretch writes. -/
abbrev written1 : List (Ref sig .tc) := [main_c_4, main_v24, main_v25, main_c_5, main_v26, main_v27, main_v28, main_v29, main_v30, main_cst_6, main_v31, main_v32, main_v33, main_v34, main_v35]
/-- The buffers the third stretch writes. -/
abbrev written2 : List (Ref sig .tc) := [main_v37, main_v38, main_v39, main_v40, main_c_7, main_v41, main_v42, main_c_8, main_v43, main_v44, main_v45, main_v46, main_v47, main_c_9, main_v48, main_v49, main_c_10, main_v50, main_v51, main_v52, main_v53, main_v54, main_v55, main_v56]

theorem writes0 : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside that list is left alone by the stretch. -/
theorem keep0 (X : Valuation τ sig (Elt Ideal)) {r : Ref sig .tc} (h : r ∉ written0) :
    StableHlo.after hostOps0 X (Proc.devRef .tc r) = X (Proc.devRef .tc r) :=
  StableHlo.after_of_writes_sub hostOps0 X writes0 h
theorem writes1 : (hostOps1 : List (HloOp τ sig (Elt Ideal))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside that list is left alone by the stretch. -/
theorem keep1 (X : Valuation τ sig (Elt Ideal)) {r : Ref sig .tc} (h : r ∉ written1) :
    StableHlo.after hostOps1 X (Proc.devRef .tc r) = X (Proc.devRef .tc r) :=
  StableHlo.after_of_writes_sub hostOps1 X writes1 h
theorem writes2 : (hostOps2 : List (HloOp τ sig (Elt Ideal))).Forall fun op =>
    op.writes ⊆ (written2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer outside that list is left alone by the stretch. -/
theorem keep2 (X : Valuation τ sig (Elt Ideal)) {r : Ref sig .tc} (h : r ∉ written2) :
    StableHlo.after hostOps2 X (Proc.devRef .tc r) = X (Proc.devRef .tc r) :=
  StableHlo.after_of_writes_sub hostOps2 X writes2 h

/-! ## What each stretch computes, from any contents `X` of the buffers it starts from -/

/-- Row 0 of the edge list (the start nodes) as a vector. -/
def edgeRow0 (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000
/-- Row 1 of the edge list (the end nodes) as a vector. -/
def edgeRow1 (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000
/-- max(1, in-degree) of every node, as a column. -/
def degCol (e : (⟨S2x1600000, .i32⟩ : BufTy).Contents (Elt Ideal)) : (⟨S100000x1, .f32⟩ : BufTy).Contents (Elt Ideal) :=
  broadcastInDim S100000x1 ![0] bcast_S100000_S100000x1_0
    (maximumf (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (edgeRow1 e))
        (broadcastInDim S1600000 ![] bcast_S_S1600000 (constant (F := Ideal) S_ .f32 0x3F800000#32)))
      (broadcastInDim S100000 ![] bcast_S_S100000 (constant (F := Ideal) S_ .f32 0x3F800000#32)))

section Stretches

variable (X : Valuation τ sig (Elt Ideal))

/-- The first stretch leaves the start nodes' row in `main_v1`. -/
theorem host0_v1 : StableHlo.after hostOps0 X (Proc.devRef .tc main_v1) = edgeRow0 (X (Proc.devRef .tc main_arg1)) := by
  after_results_simp <;> rfl
/-- The first stretch leaves the end nodes' row in `main_v3`. -/
theorem host0_v3 : StableHlo.after hostOps0 X (Proc.devRef .tc main_v3) = edgeRow1 (X (Proc.devRef .tc main_arg1)) := by
  after_results_simp <;> rfl
/-- The first stretch leaves the column of max(1, in-degree) in `main_v10`. -/
theorem host0_v10 : StableHlo.after hostOps0 X (Proc.devRef .tc main_v10) = degCol (X (Proc.devRef .tc main_arg1)) := by
  after_results_simp <;> rfl
/-- The first stretch leaves the mean over the in-neighbours of the node features in `main_v22`. -/
theorem host0_v22 : StableHlo.after hostOps0 X (Proc.devRef .tc main_v22)
    = Cert.Bridge.meanAgg (X (Proc.devRef .tc main_arg0)) (X (Proc.devRef .tc main_arg1)) := by
  after_results_simp <;> rfl

/-- The second stretch, started where `main_v1`, `main_v3`, `main_v10` hold the two rows and the degree column of an edge
    list `e`, leaves the mean over the in-neighbours of `main_v23`'s rows in `main_v35`. -/
theorem host1_v35 (e : (⟨S2x1600000, .i32⟩ : BufTy).Contents (Elt Ideal))
    (h1 : X (Proc.devRef .tc main_v1) = edgeRow0 e) (h3 : X (Proc.devRef .tc main_v3) = edgeRow1 e) (h10 : X (Proc.devRef .tc main_v10) = degCol e) :
    StableHlo.after hostOps1 X (Proc.devRef .tc main_v35) = Cert.Bridge.meanAgg (X (Proc.devRef .tc main_v23)) e := by
  after_results_simp
  rw [h1, h3, h10]
  rfl

/-- The third stretch gathers `main_v36`'s rows at the labelled edges' first end points into `main_v47`. -/
theorem host2_v47 : StableHlo.after hostOps2 X (Proc.devRef .tc main_v47)
    = Host.gather Cert.ReferenceIdeal.gather_S100000x64_S500000x1_S500000x64_1_0_n_n_0_1_164 (X (Proc.devRef .tc main_v36))
        (Cert.Bridge.rowIdx (X (Proc.devRef .tc main_arg2))) := by
  after_results_simp <;> rfl
/-- … and at their second end points into `main_v54`. -/
theorem host2_v54 : StableHlo.after hostOps2 X (Proc.devRef .tc main_v54)
    = Host.gather Cert.ReferenceIdeal.gather_S100000x64_S500000x1_S500000x64_1_0_n_n_0_1_164 (X (Proc.devRef .tc main_v36))
        (Cert.Bridge.colIdx (X (Proc.devRef .tc main_arg2))) := by
  after_results_simp <;> rfl
/-- The third stretch leaves the upper 64 rows of `main_arg9` in `main_v55`. -/
theorem host2_v55 : StableHlo.after hostOps2 X (Proc.devRef .tc main_v55)
    = extractStridedSlice S64x64 ![0, 0] (X (Proc.devRef .tc main_arg9)) slices_S128x64_S64x64_0_0 := by
  after_results_simp <;> rfl
/-- … and the lower 64 rows in `main_v56`. -/
theorem host2_v56 : StableHlo.after hostOps2 X (Proc.devRef .tc main_v56)
    = extractStridedSlice S64x64 ![64, 0] (X (Proc.devRef .tc main_arg9)) slices_S128x64_S64x64_64_0 := by
  after_results_simp <;> rfl

/-- The last stretch flattens the column `main_v57` into `main_v58`. -/
theorem host3_v58 : StableHlo.after hostOps3 X (Proc.devRef .tc main_v58)
    = shapeCast _ (X (Proc.devRef .tc main_v57)) shapeCasts_S500000x1_S500000 := by
  after_results <;> rfl

end Stretches

/-! ## The boundaries, read back to the launch memory -/

section Boundaries

variable (m : (ℓ : Loc nD τ sig) → Buf (Elt Ideal) ℓ) (ρ : Dev nD → PrngReg) (c : Dev nD)

/-- A buffer the first stretch does not write enters the first kernel as launched. -/
theorem launch_at1 {r : Ref sig .tc} (h0 : r ∉ written0) :
    W1 m ρ c (Proc.devRef .tc r) = m ((c.tc : Thread nD τ).loc r) :=
  keep0 (W0 m ρ c) h0
/-- … and, if it is none of the first kernel's arrays, leaves it as launched. -/
theorem launch_at2 {r : Ref sig .tc} (h0 : r ∉ written0) (a0 : ∀ w, Pipeline.arrRef spec0 w ≠ r) :
    W2 m ρ c (Proc.devRef .tc r) = m ((c.tc : Thread nD τ).loc r) :=
  (W2_of_ne m ρ c r a0).trans (launch_at1 m ρ c h0)
/-- … and, if the second stretch does not write it, enters the second kernel as launched. -/
theorem launch_at3 {r : Ref sig .tc} (h0 : r ∉ written0) (a0 : ∀ w, Pipeline.arrRef spec0 w ≠ r) (h1 : r ∉ written1) :
    W3 m ρ c (Proc.devRef .tc r) = m ((c.tc : Thread nD τ).loc r) :=
  (keep1 (W2 m ρ c) h1).trans (launch_at2 m ρ c h0 a0)
/-- … and, if it is none of the second kernel's arrays, leaves it as launched. -/
theorem launch_at4 {r : Ref sig .tc} (h0 : r ∉ written0) (a0 : ∀ w, Pipeline.arrRef spec0 w ≠ r) (h1 : r ∉ written1)
    (a1 : ∀ w, Pipeline.arrRef spec1 w ≠ r) :
    W4 m ρ c (Proc.devRef .tc r) = m ((c.tc : Thread nD τ).loc r) :=
  (W4_of_ne m ρ c r a1).trans (launch_at3 m ρ c h0 a0 h1)
/-- … and, if the third stretch does not write it, enters the third kernel as launched. -/
theorem launch_at5 {r : Ref sig .tc} (h0 : r ∉ written0) (a0 : ∀ w, Pipeline.arrRef spec0 w ≠ r) (h1 : r ∉ written1)
    (a1 : ∀ w, Pipeline.arrRef spec1 w ≠ r) (h2 : r ∉ written2) :
    W5 m ρ c (Proc.devRef .tc r) = m ((c.tc : Thread nD τ).loc r) :=
  (keep2 (W4 m ρ c) h2).trans (launch_at4 m ρ c h0 a0 h1 a1)

/-- The first kernel is entered with the mean aggregate of the launch features in `main_v22`. -/
theorem at1_v22 : V1 m ρ c main_v22 = Cert.Bridge.meanAgg (m ((c.tc : Thread nD τ).loc main_arg0)) (m ((c.tc : Thread nD τ).loc main_arg1)) :=
  host0_v22 (W0 m ρ c)

/-- The first kernel leaves the first layer's features in `main_v23`. -/
theorem at2_v23 (k1 : Regions.Layer1) : W2 m ρ c (Proc.devRef .tc main_v23) = (Cert.Bridge.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  calc W2 m ρ c (Proc.devRef .tc main_v23)
    _ = (dat0 (V1 m ρ) c).arrAt 5 cfg0.N := W2_arr m ρ c 5
    _ = Cert.Bridge.layerRelu (V1 m ρ c main_v22) (V1 m ρ c main_arg0) (V1 m ρ c main_arg3) (V1 m ρ c main_arg4)
          (V1 m ρ c main_arg5) := k1 (V1 m ρ) c
    _ = (Cert.Bridge.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
        rw [at1_v22 m ρ c, show V1 m ρ c main_arg0 = _ from launch_at1 m ρ c (by decide),
          show V1 m ρ c main_arg3 = _ from launch_at1 m ρ c (by decide),
          show V1 m ρ c main_arg4 = _ from launch_at1 m ρ c (by decide),
          show V1 m ρ c main_arg5 = _ from launch_at1 m ρ c (by decide)]
        rfl

/-- The first kernel passes the two rows of the edge list and the degree column through. -/
theorem at2_v1 : W2 m ρ c (Proc.devRef .tc main_v1) = edgeRow0 (m ((c.tc : Thread nD τ).loc main_arg1)) :=
  (W2_of_ne m ρ c main_v1 (by decide)).trans (host0_v1 (W0 m ρ c))
theorem at2_v3 : W2 m ρ c (Proc.devRef .tc main_v3) = edgeRow1 (m ((c.tc : Thread nD τ).loc main_arg1)) :=
  (W2_of_ne m ρ c main_v3 (by decide)).trans (host0_v3 (W0 m ρ c))
theorem at2_v10 : W2 m ρ c (Proc.devRef .tc main_v10) = degCol (m ((c.tc : Thread nD τ).loc main_arg1)) :=
  (W2_of_ne m ρ c main_v10 (by decide)).trans (host0_v10 (W0 m ρ c))

/-- The second kernel is entered with the mean aggregate of the first layer's features in `main_v35` … -/
theorem at3_v35 (k1 : Regions.Layer1) : V3 m ρ c main_v35 = Cert.Bridge.meanAgg (Cert.Bridge.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg1)) :=
  (host1_v35 (W2 m ρ c) (m ((c.tc : Thread nD τ).loc main_arg1)) (at2_v1 m ρ c) (at2_v3 m ρ c) (at2_v10 m ρ c)).trans (by rw [at2_v23 m ρ c k1])
/-- … and those features still in `main_v23`. -/
theorem at3_v23 (k1 : Regions.Layer1) : V3 m ρ c main_v23 = (Cert.Bridge.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  (keep1 (W2 m ρ c) (by decide)).trans (at2_v23 m ρ c k1)

/-- The second kernel leaves the second layer's features in `main_v36`. -/
theorem at4_v36 (k1 : Regions.Layer1) (k2 : Regions.Layer2) : W4 m ρ c (Proc.devRef .tc main_v36) = (Cert.Bridge.z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  calc W4 m ρ c (Proc.devRef .tc main_v36)
    _ = (dat1 (V3 m ρ) c).arrAt 5 cfg1.N := W4_arr m ρ c 5
    _ = Cert.Bridge.layerLin (V3 m ρ c main_v35) (V3 m ρ c main_v23) (V3 m ρ c main_arg6) (V3 m ρ c main_arg7)
          (V3 m ρ c main_arg8) := k2 (V3 m ρ) c
    _ = (Cert.Bridge.z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
        rw [at3_v35 m ρ c k1, at3_v23 m ρ c k1,
          show V3 m ρ c main_arg6 = _ from launch_at3 m ρ c (by decide) (by decide) (by decide),
          show V3 m ρ c main_arg7 = _ from launch_at3 m ρ c (by decide) (by decide) (by decide),
          show V3 m ρ c main_arg8 = _ from launch_at3 m ρ c (by decide) (by decide) (by decide)]
        rfl

/-- The third kernel is entered with the second layer's features gathered at the labelled edges' two end points … -/
theorem at5_v47 (k1 : Regions.Layer1) (k2 : Regions.Layer2) :
    V5 m ρ c main_v47 = Host.gather Cert.ReferenceIdeal.gather_S100000x64_S500000x1_S500000x64_1_0_n_n_0_1_164 (Cert.Bridge.z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.Bridge.rowIdx (m ((c.tc : Thread nD τ).loc main_arg2))) :=
  (host2_v47 (W4 m ρ c)).trans (by
    rw [at4_v36 m ρ c k1 k2, launch_at4 m ρ c (r := main_arg2) (by decide) (by decide) (by decide) (by decide)])
theorem at5_v54 (k1 : Regions.Layer1) (k2 : Regions.Layer2) :
    V5 m ρ c main_v54 = Host.gather Cert.ReferenceIdeal.gather_S100000x64_S500000x1_S500000x64_1_0_n_n_0_1_164 (Cert.Bridge.z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.Bridge.colIdx (m ((c.tc : Thread nD τ).loc main_arg2))) :=
  (host2_v54 (W4 m ρ c)).trans (by
    rw [at4_v36 m ρ c k1 k2, launch_at4 m ρ c (r := main_arg2) (by decide) (by decide) (by decide) (by decide)])
/-- … and the two halves of the launch `main_arg9`. -/
theorem at5_v55 : V5 m ρ c main_v55 = extractStridedSlice S64x64 ![0, 0] (m ((c.tc : Thread nD τ).loc main_arg9)) slices_S128x64_S64x64_0_0 :=
  (host2_v55 (W4 m ρ c)).trans (by
    rw [launch_at4 m ρ c (r := main_arg9) (by decide) (by decide) (by decide) (by decide)])
theorem at5_v56 : V5 m ρ c main_v56 = extractStridedSlice S64x64 ![64, 0] (m ((c.tc : Thread nD τ).loc main_arg9)) slices_S128x64_S64x64_64_0 :=
  (host2_v56 (W4 m ρ c)).trans (by
    rw [launch_at4 m ρ c (r := main_arg9) (by decide) (by decide) (by decide) (by decide)])

/-- The third kernel leaves the column of scores in `main_v57`. -/
theorem at6_v57 (k1 : Regions.Layer1) (k2 : Regions.Layer2) (k3 : Regions.Decoder) :
    W6 m ρ c (Proc.devRef .tc main_v57)
      = Cert.Bridge.decoder (Host.gather Cert.ReferenceIdeal.gather_S100000x64_S500000x1_S500000x64_1_0_n_n_0_1_164 (Cert.Bridge.z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.Bridge.rowIdx (m ((c.tc : Thread nD τ).loc main_arg2))))
          (Host.gather Cert.ReferenceIdeal.gather_S100000x64_S500000x1_S500000x64_1_0_n_n_0_1_164 (Cert.Bridge.z2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.Bridge.colIdx (m ((c.tc : Thread nD τ).loc main_arg2)))) (m ((c.tc : Thread nD τ).loc main_arg9)) (m ((c.tc : Thread nD τ).loc main_arg10)) (m ((c.tc : Thread nD τ).loc main_arg11)) (m ((c.tc : Thread nD τ).loc main_arg12)) :=
  calc W6 m ρ c (Proc.devRef .tc main_v57)
    _ = (dat2 (V5 m ρ) c).arrAt 7 cfg2.N := W6_arr m ρ c 7
    _ = Cert.Bridge.decoder (V5 m ρ c main_v47) (V5 m ρ c main_v54) (m ((c.tc : Thread nD τ).loc main_arg9)) (V5 m ρ c main_arg10) (V5 m ρ c main_arg11)
          (V5 m ρ c main_arg12) := k3 (V5 m ρ) c (m ((c.tc : Thread nD τ).loc main_arg9)) (at5_v55 m ρ c) (at5_v56 m ρ c)
    _ = _ := by
        rw [at5_v47 m ρ c k1 k2, at5_v54 m ρ c k1 k2,
          show V5 m ρ c main_arg10 = _ from launch_at5 m ρ c (by decide) (by decide) (by decide) (by decide) (by decide),
          show V5 m ρ c main_arg11 = _ from launch_at5 m ρ c (by decide) (by decide) (by decide) (by decide) (by decide),
          show V5 m ρ c main_arg12 = _ from launch_at5 m ρ c (by decide) (by decide) (by decide) (by decide) (by decide)]

end Boundaries

/-- THE FOLD. Given what each kernel leaves in its output array, the result buffer ends at the reference function of
    the thirteen launch arrays. -/
theorem result_eq (h1 : Cert.KernelIdeal.Regions.Layer1) (h2 : Cert.KernelIdeal.Regions.Layer2)
    (h3 : Cert.KernelIdeal.Regions.Decoder) (m : (ℓ : Loc nD τ sig) → Buf (Elt Ideal) ℓ) (ρ : Dev nD → PrngReg) (c : Dev nD) :
    Gen.W7 (F := Ideal) m ρ c (Proc.devRef .tc main_v58)
      = Cert.Bridge.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (host3_v58 (W6 m ρ c)).trans (by rw [at6_v57 m ρ c h1 h2 h3]; rfl)

end Cert.KernelIdeal.Fold

end
-- ==== Proof.lean ====
/-
  The certificate of the three-kernel link predictor against its jnp reference, on the extended reals.

  Both programs compute, from node features x, an edge list e and a list l of labelled edges: the mean of every node's
  in-neighbours' rows (a gather along the edges' start nodes, a scatter-add at their end nodes, a division by
  max(1, in-degree)); a layer `mean · W1l + b1l + x · W1r` cut at 0 from below; the same aggregate and a second layer of
  those features; and, at each labelled edge, the decoder max([z_row | z_col] · Wd1 + bd1, 0) · Wd2 + bd2. The kernel
  program computes the two layers and the decoder in three kernels, each over blocks of 10000 rows, with matrix products
  taken in a shorter float format (the identity on the extended reals) and the decoder's first product split as
  z_row · (rows 0–63 of Wd1) + z_col · (rows 64–127 of Wd1); gathers, scatter-adds and the division are the same host
  operations in both programs. The split product is the joined row's product because a sum over 64 + 64 terms is the sum
  of its two halves — associativity and commutativity of addition only, so the precondition (finite inputs) is never
  opened.

  Proof/Spec.lean states the common function; Proof/Region0–2.lean show what each kernel leaves in its output array
  (from the body's stored block read at an index, Proof/Payload.lean, the reference's operations read at an index,
  Proof/SpecRead.lean, and the cover of the array by the grid's blocks); Proof/KernelFold.lean follows the result buffer
  back through the host stretches and the kernels to the arguments; Proof/KernelRun.lean is the kernel program's run with
  the result buffer named; Proof/RefValue.lean identifies the reference's operations with the common function.
  The idealization rewrote no operation, so `preserves` is trivial.
-/
import proofs.«124228_j36301063586078_2_alg».proof.Defs
import proofs.«124228_j36301063586078_2_alg».proof.Proof.Gen.Kernel
import proofs.«124228_j36301063586078_2_alg».proof.Proof.Gen.Kernel.Frame
import proofs.«124228_j36301063586078_2_alg».proof.Proof.Gen.KernelIdeal
import proofs.«124228_j36301063586078_2_alg».proof.Proof.Gen.KernelIdeal.Frame
import proofs.«124228_j36301063586078_2_alg».proof.Proof.Gen.ReferenceIdeal
import proofs.«124228_j36301063586078_2_alg».proof.Proof.Gen.ReferenceIdeal.Run
import proofs.«124228_j36301063586078_2_alg».proof.Proof.Gen.ReferenceIdeal.Read
import proofs.«124228_j36301063586078_2_alg».proof.Proof.Gen.Pre_finite_inputs
import proofs.«124228_j36301063586078_2_alg».proof.Proof.Region0
import proofs.«124228_j36301063586078_2_alg».proof.Proof.Region1
import proofs.«124228_j36301063586078_2_alg».proof.Proof.Region2
import proofs.«124228_j36301063586078_2_alg».proof.Proof.RefValue
import proofs.«124228_j36301063586078_2_alg».proof.Proof.KernelRun
import proofs.«124228_j36301063586078_2_alg».proof.Proof.KernelFold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the common function of the arguments in their result buffers. -/
theorem algebraic : Cert.algebraic_KernelIdeal_ReferenceIdeal := by
  intro m ρ m' ρ' _ hagree
  refine ⟨fun c => Cert.Bridge.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result_eq Cert.KernelIdeal.Region0.layer1 Cert.KernelIdeal.Region1.layer2
          Cert.KernelIdeal.Region2.decoder_region m ρ c), (h c).2⟩)
      (Cert.KernelIdeal.ValueRun.run (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12⟩ := hagree c
    rw [(h c).1, Cert.ReferenceIdeal.Read.val_main_v83_eq, Cert.ReferenceIdeal.RefValue.result_eq,
      a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
